-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x64 : Shape := ⟨2, ![2048, 64]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Gram.lean ====
/-
  The radial-basis Gram matrix of two families of 8192 points in 64 dimensions, as one function of the two
  coordinate arrays, entry by entry, on the extended reals:

      gram x y (p, q) = exp (-1 · max (|x_p|² + |y_q|² - 2 · ⟨x_p, y_q⟩) 0),

  where |x_p|² is the sum (started from the zero word) of the squares of row p's 64 entries and ⟨x_p, y_q⟩ the
  sum of the 64 products of row p of x with row q of y. The three float literals stay as their words (the zero
  the sums start from and the maximum is taken with, the factor two, the factor minus one): both programs spell
  the same words, so none of them is ever evaluated. No program is mentioned here; both sides are compared with
  this one function.
-/
import Idealize.ShloMosaic.PureOps.Ideal
import Idealize.ShloMosaic.Lib.ValueIdx

noncomputable section

open scoped BigOperators

namespace Cert.Gram

open Idealize.ShloMosaic Idealize.ShloMosaic.ValueIdx

/-- The squared length of row `r` of a [8192, 64] array: the zero word plus the sum of the squares of its entries. -/
def rowSq (x : (⟨2, ![8192, 64]⟩ : Shape).Idx → EReal) (r : Fin 8192) : EReal :=
  Ideal.ofBits .f32 0x00000000#32 + ∑ k : Fin 64, x (ix2 r k) * x (ix2 r k)

/-- The inner product of row `r` of `x` with row `c` of `y`. -/
def cross (x y : (⟨2, ![8192, 64]⟩ : Shape).Idx → EReal) (r c : Fin 8192) : EReal :=
  ∑ k : Fin 64, x (ix2 r k) * y (ix2 c k)

/-- One entry of the Gram matrix from the two squared lengths `a`, `b` and the inner product `d`:
    `exp (-1 · max (a + b - 2 · d) 0)`. -/
def entry (a b d : EReal) : EReal :=
  Ideal.exp (Ideal.ofBits .f32 0xBF800000#32 * max (a + b - Ideal.ofBits .f32 0x40000000#32 * d) (Ideal.ofBits .f32 0x00000000#32))

/-- The entry at row `p`, column `q`. -/
def gramAt (x y : (⟨2, ![8192, 64]⟩ : Shape).Idx → EReal) (p q : Fin 8192) : EReal :=
  entry (rowSq x p) (rowSq y q) (cross x y p q)

/-- The whole [8192, 8192] matrix. -/
def gram (x y : (⟨2, ![8192, 64]⟩ : Shape).Idx → EReal) : (⟨2, ![8192, 8192]⟩ : Shape).Idx → EReal :=
  fun i => gramAt x y (i 0) (i 1)

/-- Read at an index given by its two coordinates. -/
theorem gram_ix2 (x y : (⟨2, ![8192, 64]⟩ : Shape).Idx → EReal) (p q : Fin 8192) :
    gram x y (ix2 p q) = gramAt x y p q := rfl

end Cert.Gram

end
-- ==== Proof.RefGram.lean ====
/-
  The reference computes the Gram matrix. Its last stage, read back one operation at a time, is at entry (p, q):
  exp of minus one times the maximum with zero of (row p's squared length of x, broadcast along the columns, plus
  row q's squared length of y, broadcast along the rows) minus two times the contraction of x's row p with y's
  row q. The composed index functions of the broadcasts and of the two row sums send (p, q) and a summation
  index k to (p, k) and (q, k); with that the stage is `Gram.gram` by unfolding.
-/
import proofs.«174080_j65481071403856_2_alg».proof.Proof.Gen.ReferenceIdeal.Read
import proofs.«174080_j65481071403856_2_alg».proof.Proof.Gram

noncomputable section

open scoped BigOperators

namespace Cert.ReferenceIdeal.RefGram

open Cert.ReferenceIdeal Cert.ReferenceIdeal.Read Idealize.ShloMosaic Idealize.ShloMosaic.ValueIdx

/-- The row sum of x's squares, reached through the two broadcasts, runs over row `p`. -/
theorem idx_x (p q : Fin 8192) (k : Fin 64) :
    idx_main_v1 (idx_main_v5 (idx_main_v7 (ix2 p q))) k = ix2 p k :=
  funext fun a => Fin.ext (by match a with | ⟨0, _⟩ => rfl | ⟨1, _⟩ => rfl)

/-- The row sum of y's squares, reached through the two broadcasts, runs over row `q`. -/
theorem idx_y (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The contraction's left factor at entry (p, q) is x at (p, k). -/
theorem idx_l (p q : Fin 8192) (k : Fin 64) : lidx_main_v4 (ix2 p q) k = ix2 p k :=
  funext fun a => Fin.ext (by match a with | ⟨0, _⟩ => rfl | ⟨1, _⟩ => rfl)

/-- The contraction's right factor at entry (p, q) is y at (q, k). -/
theorem idx_r (p q : Fin 8192) (k : Fin 64) : ridx_main_v4 (ix2 p q) k = ix2 q k :=
  funext fun a => Fin.ext (by match a with | ⟨0, _⟩ => rfl | ⟨1, _⟩ => rfl)

/-- The reference's result, as a function of its two argument arrays, is the Gram matrix. -/
theorem result_eq (x y : (⟨S8192x64, .f32⟩ : BufTy).Contents (Elt Ideal)) :
    val_main_v17 (F := Ideal) x y = Cert.Gram.gram x y := by
  funext i
  obtain ⟨p, q, rfl⟩ : ∃ (p q : Fin 8192), i = ix2 p q := ⟨i 0, i 1, eq_ix2 i⟩
  rw [Cert.Gram.gram_ix2, val_main_v17_apply, val_main_v16_apply, val_main_v15_apply, val_main_cst_3_apply,
    val_main_v14_apply, val_main_v13_apply, val_main_cst_2_apply, val_main_v12_apply, val_main_v11_apply,
    val_main_v10_apply, val_main_cst_1_apply, val_main_v4_apply, val_main_v9_apply, val_main_v7_apply,
    val_main_v5_apply, val_main_v1_apply, val_main_v8_apply, val_main_v6_apply, val_main_v3_apply,
    val_main_cst_apply, val_main_cst_0_apply]
  simp only [val_main_v0_apply, val_main_v2_apply, idx_x, idx_y, idx_l, idx_r, Ideal.hostUnary_exp_def,
    Ideal.mulf_def, Ideal.maximumf_def, Ideal.subf_def, Ideal.addf_def, Ideal.ofBits_def]
  rfl

end Cert.ReferenceIdeal.RefGram

end
-- ==== Proof.Body.lean ====
/-
  One tile of the kernel. At a grid point the body holds a [2048, 64] block of x, a [2048, 64] block of y, a
  [2048, 1] column of squared lengths of x's rows and a [1, 2048] row of squared lengths of y's rows, and stores
  the [2048, 2048] tile whose entry (p, q) is

      exp (-1 · max (col p + row q - 2 · Σ_k xblock (p, k) · yblock (q, k)) 0).

  The three operations that are not entry-by-entry are read at (p, q) first: the column broadcast along the
  columns, the row broadcast along the rows, and the matrix product into a zero accumulator contracting the
  second axis of both blocks, which is the plain sum over k of the 64 products.
-/
import proofs.«174080_j65481071403856_2_alg».proof.Proof.Gen.KernelIdeal.Skeleton
import proofs.«174080_j65481071403856_2_alg».proof.Proof.Gram
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The column of squared lengths, cast to its own shape and broadcast along the columns, read at (p, q): its entry p. -/
theorem col_apply (v : FVec Ideal S2048x1 .f32) (h1 : S2048x1.ShapeCasts S2048x1) (h2 : S2048x1.Broadcasts S2048x2048)
    (p q : Fin 2048) :
    broadcastTo S2048x2048 (shapeCast S2048x1 v h1) h2 (ix2 p q) = v (ix2 p (0 : Fin 1)) := by
  rw [shapeCast_self]
  refine broadcastTo_apply v h2 (ix2 p q) (ix2 p (0 : Fin 1)) fun ax => ?_
  match ax with
  | ⟨0, _⟩ =>
    show p.val = if (2048 : Nat) = 1 then 0 else p.val
    rw [if_neg (by decide)]
  | ⟨1, _⟩ => rfl

/-- The row of squared lengths, cast to its own shape and broadcast along the rows, read at (p, q): its entry q. -/
theorem row_apply (v : FVec Ideal S1x2048 .f32) (h1 : S1x2048.ShapeCasts S1x2048) (h2 : S1x2048.Broadcasts S2048x2048)
    (p q : Fin 2048) :
    broadcastTo S2048x2048 (shapeCast S1x2048 v h1) h2 (ix2 p q) = v (ix2 (0 : Fin 1) q) := by
  rw [shapeCast_self]
  exact broadcastTo_1b_ab_apply v h2 p q

/-! The matrix product's operand indices: the output's row picks the left block's row, the output's column picks the
    right block's ROW (both blocks are contracted along their second axis), and the one contraction coordinate is the
    second coordinate of both. -/

theorem lhs_0 (i : S2048x2048.Idx) (c : dot_S2048x64_S2048x64_S2048x2048_1_1_0_0_n_n.contr.Idx) :
    (dot_S2048x64_S2048x64_S2048x2048_1_1_0_0_n_n.lhsIdx i c 0).val = (i 0).val := by
  unfold DotDims.lhsIdx
  rw [dif_neg (show ¬(0 : Fin S2048x64.rank) ∈ dot_S2048x64_S2048x64_S2048x2048_1_1_0_0_n_n.lhsBatch by decide),
    dif_pos (show (0 : Fin S2048x64.rank) ∈ dot_S2048x64_S2048x64_S2048x2048_1_1_0_0_n_n.lhsNonContracting by decide)]
  rfl

theorem lhs_1 (i : S2048x2048.Idx) (c : dot_S2048x64_S2048x64_S2048x2048_1_1_0_0_n_n.contr.Idx) :
    (dot_S2048x64_S2048x64_S2048x2048_1_1_0_0_n_n.lhsIdx i c 1).val = (c ⟨0, by decide⟩).val :=
  dot_S2048x64_S2048x64_S2048x2048_1_1_0_0_n_n.lhsIdx_val_of_single rfl i c

theorem rhs_0 (i : S2048x2048.Idx) (c : dot_S2048x64_S2048x64_S2048x2048_1_1_0_0_n_n.contr.Idx) :
    (dot_S2048x64_S2048x64_S2048x2048_1_1_0_0_n_n.rhsIdx i c 0).val = (i 1).val := by
  unfold DotDims.rhsIdx
  rw [dif_neg (show ¬(0 : Fin S2048x64.rank) ∈ dot_S2048x64_S2048x64_S2048x2048_1_1_0_0_n_n.rhsBatch by decide),
    dif_pos (show (0 : Fin S2048x64.rank) ∈ dot_S2048x64_S2048x64_S2048x2048_1_1_0_0_n_n.rhsNonContracting by decide)]
  rfl

theorem rhs_1 (i : S2048x2048.Idx) (c : dot_S2048x64_S2048x64_S2048x2048_1_1_0_0_n_n.contr.Idx) :
    (dot_S2048x64_S2048x64_S2048x2048_1_1_0_0_n_n.rhsIdx i c 1).val = (c ⟨0, by decide⟩).val :=
  dot_S2048x64_S2048x64_S2048x2048_1_1_0_0_n_n.rhsIdx_val_of_single rfl i c

/-- The matrix product of the two blocks into the zero accumulator, read at (p, q): the sum over the 64 features of
    the left block at (p, k) times the right block at (q, k). -/
theorem mm_apply (a b : FVec Ideal S2048x64 .f32) (p q : Fin 2048) :
    matmul dot_S2048x64_S2048x64_S2048x2048_1_1_0_0_n_n none a b (constant S2048x2048 .f32 0x00000000#32) (ix2 p q)
      = ∑ k : Fin 64, a (ix2 p k) * b (ix2 q k) := by
  simp only [matmul]
  rw [Ideal.matmul_constant_zero_apply,
    ← Equiv.sum_comp (contrEquiv1 dot_S2048x64_S2048x64_S2048x2048_1_1_0_0_n_n 64 rfl rfl).symm]
  refine Finset.sum_congr rfl fun k _ => ?_
  have hk := contrEquiv1_symm_val dot_S2048x64_S2048x64_S2048x2048_1_1_0_0_n_n 64 rfl rfl k
  have el : dot_S2048x64_S2048x64_S2048x2048_1_1_0_0_n_n.lhsIdx (ix2 p q)
      ((contrEquiv1 dot_S2048x64_S2048x64_S2048x2048_1_1_0_0_n_n 64 rfl rfl).symm k) = ix2 p k :=
    funext fun ax => Fin.ext (by
      match ax with
      | ⟨0, _⟩ => exact lhs_0 _ _
      | ⟨1, _⟩ => exact (lhs_1 _ _).trans hk)
  have er : dot_S2048x64_S2048x64_S2048x2048_1_1_0_0_n_n.rhsIdx (ix2 p q)
      ((contrEquiv1 dot_S2048x64_S2048x64_S2048x2048_1_1_0_0_n_n 64 rfl rfl).symm k) = ix2 q k :=
    funext fun ax => Fin.ext (by
      match ax with
      | ⟨0, _⟩ => exact rhs_0 _ _
      | ⟨1, _⟩ => exact (rhs_1 _ _).trans hk)
  rw [el, er]

/-- THE TILE: the body's stored value at (p, q) is the Gram entry of the column's entry p, the row's entry q and the
    inner product of the x block's row p with the y block's row q. -/
theorem pay_apply (a b : Vec Ideal S2048x64 .f32) (col : Vec Ideal S2048x1 .f32) (row : Vec Ideal S1x2048 .f32)
    (p q : Fin 2048) :
    k0_pay1 (F := Ideal) a b col row (ix2 p q)
      = Cert.Gram.entry (col (ix2 p (0 : Fin 1))) (row (ix2 (0 : Fin 1) q)) (∑ k : Fin 64, a (ix2 p k) * b (ix2 q k)) := by
  unfold k0_pay1 Cert.Gram.entry
  show Ideal.exp (Ideal.ofBits .f32 0xBF800000#32 * max
      (broadcastTo S2048x2048 (shapeCast S2048x1 col _) _ (ix2 p q) + broadcastTo S2048x2048 (shapeCast S1x2048 row _) _ (ix2 p q)
        - Ideal.ofBits .f32 0x40000000#32
          * matmul (F := Ideal) dot_S2048x64_S2048x64_S2048x2048_1_1_0_0_n_n none a b (constant (F := Ideal) S2048x2048 .f32 0x00000000#32) (ix2 p q))
      (Ideal.ofBits .f32 0x00000000#32)) = _
  rw [col_apply, row_apply, mm_apply]

end Cert.KernelIdeal.Body

end
-- ==== Proof.Norms.lean ====
/-
  The two arrays of squared lengths the kernel's region is launched with. Before the region the program squares
  x entry by entry, sums each row from the zero word and lays the 8192 sums out as a [8192, 1] column; it does the
  same with y and lays the sums out as a [1, 8192] row. Read at (r, 0), respectively (0, r), each is the squared
  length of row r (`Gram.rowSq`) of the array the program was launched with.
-/
import proofs.«174080_j65481071403856_2_alg».proof.Proof.Gen.KernelIdeal.Frame
import proofs.«174080_j65481071403856_2_alg».proof.Proof.Gram
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.Norms

open Cert.KernelIdeal Cert.KernelIdeal.Gen Idealize.ShloMosaic Idealize.ShloMosaic.TcCoe Idealize.SL.Sem
open Idealize.ShloMosaic.StableHlo Idealize.ShloMosaic.ValueIdx

/-- The host's sum of the squares of a [8192, 64] array along its second axis, started from the zero word, read at
    row `r`: the squared length of that row. -/
theorem rowSum_apply (x : FVec Ideal S8192x64 .f32) (r : Fin 8192) :
    Host.reduceAdd (F := Ideal) (mulf x x) (constant (F := Ideal) S_ .f32 0x00000000#32) reducesTo_S8192x64_S8192_d1 h_S_ (ix1 r)
      = Cert.Gram.rowSq x r := by
  generalize hy : mulf x x = y0
  simp only [Host.reduceAdd, Ideal.hostReduceAdd_def]
  rw [Ideal.hostReduceAdd_single reducesTo_S8192x64_S8192_d1 (by decide)]
  subst hy
  unfold Cert.Gram.rowSq
  refine congrArg (_ + ·) (Finset.sum_congr rfl fun k _ => ?_)
  exact congrArg (mulf x x) (funext fun a => Fin.ext (by match a with | ⟨0, _⟩ => rfl | ⟨1, _⟩ => rfl))

variable (m : (ℓ : Loc nD τ sig) → Buf (Elt Ideal) ℓ)

/-- The column the region finds: the row sums of x's squares, laid out as [8192, 1]. -/
theorem V_col (c : Dev nD) : (V m c main_v2 : S8192x1.Idx → EReal) =
    broadcastInDim S8192x1 ![0] bcast_S8192_S8192x1_0
      (Host.reduceAdd (F := Ideal) (mulf (m ((c : Thread nD τ).loc main_arg0)) (m ((c : Thread nD τ).loc main_arg0)))
        (constant (F := Ideal) S_ .f32 0x00000000#32) reducesTo_S8192x64_S8192_d1 h_S_) := by
  dsimp only [Gen.V, Gen.hostOps0]; after_results

/-- The row the region finds: the row sums of y's squares, laid out as [1, 8192]. -/
theorem V_row (c : Dev nD) : (V m c main_v5 : S1x8192.Idx → EReal) =
    broadcastInDim S1x8192 ![1] bcast_S8192_S1x8192_1
      (Host.reduceAdd (F := Ideal) (mulf (m ((c : Thread nD τ).loc main_arg1)) (m ((c : Thread nD τ).loc main_arg1)))
        (constant (F := Ideal) S_ .f32 0x00000000#32) reducesTo_S8192x64_S8192_d1 h_S_) := by
  dsimp only [Gen.V, Gen.hostOps0]; after_results

/-- The column at (r, 0) is the squared length of x's row r. -/
theorem V_col_apply (c : Dev nD) (r : Fin 8192) :
    V m c main_v2 (ix2 r (0 : Fin 1)) = Cert.Gram.rowSq (m ((c : Thread nD τ).loc main_arg0)) r := by
  rw [V_col]
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact rowSum_apply _ r

/-- The row at (0, r) is the squared length of y's row r. -/
theorem V_row_apply (c : Dev nD) (r : Fin 8192) :
    V m c main_v5 (ix2 (0 : Fin 1) r) = Cert.Gram.rowSq (m ((c : Thread nD τ).loc main_arg1)) r := by
  rw [V_row]
  refine (broadcastInDim_apply _ bcast_S8192_S1x8192_1 _ (ix2 (0 : Fin 1) r) (ix1 r) (fun a => match a with
    | ⟨0, _⟩ => by show r.val = if (8192 : Nat) = 1 then 0 else r.val; rw [if_neg (by decide)])).trans ?_
  exact rowSum_apply _ r

end Cert.KernelIdeal.Norms

end
-- ==== Proof.Tiles.lean ====
/-
  From tiles to the matrix. The grid has 4 × 4 points; at point (I, J) the kernel is handed rows
  [2048 I, 2048 I + 2048) of x and of the column of x's squared lengths, rows [2048 J, 2048 J + 2048) of y and
  the matching stretch of the row of y's squared lengths, and writes back tile (I, J) of the output. So the tile's
  entry (p, q) is the Gram entry at (2048 I + p, 2048 J + q): what point (I, J) writes back is block (I, J) of
  `Gram.gram` of the two argument arrays. The 16 tiles cover the [8192, 8192] output — entry (r, s) lies in tile
  (r / 2048, s / 2048) — so after the run the output array IS `Gram.gram x y`.
-/
import proofs.«174080_j65481071403856_2_alg».proof.Proof.Gen.KernelIdeal.Value
import proofs.«174080_j65481071403856_2_alg».proof.Proof.Gram
import proofs.«174080_j65481071403856_2_alg».proof.Proof.Body
import proofs.«174080_j65481071403856_2_alg».proof.Proof.Norms

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-- ONE TILE, over plain variables: if the x block holds rows `bi · 2048 + p` of `X`, the y block rows
    `bj · 2048 + q` of `Y`, and the column and the row hold the squared lengths of those rows, then the stored tile
    at `y` is the Gram matrix of `X` and `Y` at the entry `i` whose coordinates are `y`'s shifted by the tile's
    offsets. -/
theorem tile_eq (X Y : S8192x64.Idx → EReal) (a b : Vec Ideal S2048x64 .f32) (col : Vec Ideal S2048x1 .f32)
    (row : Vec Ideal S1x2048 .f32) (bi bj : Nat)
    (ha : ∀ (p : Fin 2048) (k : Fin 64) (r : Fin 8192), r.val = bi * 2048 + p.val → a (ix2 p k) = X (ix2 r k))
    (hb : ∀ (q : Fin 2048) (k : Fin 64) (s : Fin 8192), s.val = bj * 2048 + q.val → b (ix2 q k) = Y (ix2 s k))
    (hcol : ∀ (p : Fin 2048) (r : Fin 8192), r.val = bi * 2048 + p.val → col (ix2 p (0 : Fin 1)) = Cert.Gram.rowSq X r)
    (hrow : ∀ (q : Fin 2048) (s : Fin 8192), s.val = bj * 2048 + q.val → row (ix2 (0 : Fin 1) q) = Cert.Gram.rowSq Y s)
    (y : S2048x2048.Idx) (i : S8192x8192.Idx)
    (hi0 : (i 0).val = bi * 2048 + (y 0).val) (hi1 : (i 1).val = bj * 2048 + (y 1).val) :
    k0_pay1 (F := Ideal) a b col row y = Cert.Gram.gram X Y i := by
  obtain ⟨p, q, rfl⟩ : ∃ (p q : Fin 2048), y = ix2 p q := ⟨y 0, y 1, eq_ix2 y⟩
  obtain ⟨r, s, rfl⟩ : ∃ (r s : Fin 8192), i = ix2 r s := ⟨i 0, i 1, eq_ix2 i⟩
  rw [Body.pay_apply, Cert.Gram.gram_ix2]
  unfold Cert.Gram.gramAt Cert.Gram.cross
  rw [hcol p r hi0, hrow q s hi1]
  exact congrArg (Cert.Gram.entry _ _) (Finset.sum_congr rfl fun k _ => by rw [ha p k r hi0, hb q k s hi1])

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 16 grid points: the x block and the column follow the output tile's row index,
    the y block and the row its column index, every other block coordinate is 0, and both tile indices are at most 3. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every tile index pair is some grid point's. -/
theorem idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-- WHAT POINT `t` WRITES BACK is block `t` of the Gram matrix of the two argument arrays. -/
theorem flushed_eq (c : Dev nD) (t : Fin cfg0.N) :
    (dats m 0 c).flushed 4 t = ((cfg0.win 4).blk t).view.read (Elt Ideal)
      (Cert.Gram.gram (m ((c : Thread nD τ).loc main_arg0)) (m ((c : Thread nD τ).loc main_arg1))) := by
  rw [Value.flushed4]
  unfold out0_4
  rw [View.canon_unit_zero origin]
  simp only [View.ld_unit_zero (S := S2048x64) origin, View.ld_unit_zero (S := S2048x1) origin,
    View.ld_unit_zero (S := S1x2048) origin]
  obtain ⟨e0, e1, e2, e3, e4, e5, e6, e7, e8, e9⟩ := idx_facts t
  funext j
  show k0_pay1 (F := Ideal) (iblk m c 0 t) (iblk m c 1 t) (iblk m c 2 t) (iblk m c 3 t) j
    = Cert.Gram.gram (m ((c : Thread nD τ).loc main_arg0)) (m ((c : Thread nD τ).loc main_arg1)) (((cfg0.win 4).blk t).view.emb j)
  refine tile_eq (m ((c : Thread nD τ).loc main_arg0)) (m ((c : Thread nD τ).loc main_arg1))
    (iblk m c 0 t) (iblk m c 1 t) (iblk m c 2 t) (iblk m c 3 t) (win0_4.index t (0 : Fin 2)) (win0_4.index t (1 : Fin 2))
    ?_ ?_ ?_ ?_ j (((cfg0.win 4).blk t).view.emb j) ?_ ?_
  · intro p k r hr
    show V m c main_arg0 (((cfg0.win 0).blk t).view.emb (ix2 p k)) = _
    rw [V_main_arg0]
    refine congrArg _ (funext fun ax => Fin.ext ?_)
    match ax with
    | ⟨0, _⟩ => show win0_0.index t (0 : Fin 2) * 2048 + 1 * p.val = r.val; omega
    | ⟨1, _⟩ => show win0_0.index t (1 : Fin 2) * 64 + 1 * k.val = k.val; omega
  · intro q k s hs
    show V m c main_arg1 (((cfg0.win 1).blk t).view.emb (ix2 q k)) = _
    rw [V_main_arg1]
    refine congrArg _ (funext fun ax => Fin.ext ?_)
    match ax with
    | ⟨0, _⟩ => show win0_1.index t (0 : Fin 2) * 2048 + 1 * q.val = s.val; omega
    | ⟨1, _⟩ => show win0_1.index t (1 : Fin 2) * 64 + 1 * k.val = k.val; omega
  · intro p r hr
    show V m c main_v2 (((cfg0.win 2).blk t).view.emb (ix2 p (0 : Fin 1))) = _
    have e : ((cfg0.win 2).blk t).view.emb (ix2 p (0 : Fin 1)) = ix2 r (0 : Fin 1) :=
      funext fun ax => Fin.ext (by
        match ax with
        | ⟨0, _⟩ => show win0_2.index t (0 : Fin 2) * 2048 + 1 * p.val = r.val; omega
        | ⟨1, _⟩ => show win0_2.index t (1 : Fin 2) * 1 + 1 * 0 = 0; omega)
    rw [e]
    exact Norms.V_col_apply m c r
  · intro q s hs
    show V m c main_v5 (((cfg0.win 3).blk t).view.emb (ix2 (0 : Fin 1) q)) = _
    have e : ((cfg0.win 3).blk t).view.emb (ix2 (0 : Fin 1) q) = ix2 (0 : Fin 1) s :=
      funext fun ax => Fin.ext (by
        match ax with
        | ⟨0, _⟩ => show win0_3.index t (0 : Fin 2) * 1 + 1 * 0 = 0; omega
        | ⟨1, _⟩ => show win0_3.index t (1 : Fin 2) * 2048 + 1 * q.val = s.val; omega)
    rw [e]
    exact Norms.V_row_apply m c s
  · show win0_4.index t (0 : Fin 2) * 2048 + 1 * (j 0).val = win0_4.index t (0 : Fin 2) * 2048 + (j 0).val
    omega
  · show win0_4.index t (1 : Fin 2) * 2048 + 1 * (j 1).val = win0_4.index t (1 : Fin 2) * 2048 + (j 1).val
    omega

/-- An entry of the output is in point `t`'s tile iff each coordinate is in the tile's range on its axis. -/
theorem mem_blk (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v6).slice (win0_4.rect t)).set ↔ _
  rw [View.set_slice_whole, Rect.mem_set_unit]
  exact Iff.rfl

/-- THE TILES COVER THE OUTPUT: entry (r, s) lies in the tile of the point with tile indices (r / 2048, s / 2048). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 2048 ≤ (i 1).val ∧ (i 1).val < win0_4.index t (1 : Fin 2) * 2048 + 2048
    omega

/-- THE OUTPUT ARRAY after the run is the Gram matrix of the two argument arrays. -/
theorem final (c : Dev nD) :
    (dats m 0 c).arrAt 4 cfg0.N
      = Cert.Gram.gram (m ((c : Thread nD τ).loc main_arg0)) (m ((c : Thread nD τ).loc main_arg1)) :=
  (dats m 0 c).arrAt_eq_of_cover 4 _ (fun t _ => flushed_eq m c t) cover

/-- The kernel's run re-posted: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v6)
        = Cert.Gram.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.lean ====
/-
  The radial-basis Gram matrix of 8192 points x against 8192 points y in 64 dimensions,

      out (r, s) = exp (-1 · max (|x_r|² + |y_s|² - 2 · ⟨x_r, y_s⟩) 0),

  computed two ways. The kernel sums the squares of each row of x and of y once, outside the tiled region, and then
  fills the [8192, 8192] output in 4 × 4 tiles of 2048 × 2048: a tile's entry is formed from one entry of the column
  of x's squared lengths, one entry of the row of y's squared lengths and one entry of the product of a 2048-row
  block of x with a 2048-row block of y, contracted along the 64 features into a zero accumulator. The reference
  forms the same expression on whole arrays, its inner products by one contraction of x with y.

  On the extended reals both are the one function `Gram.gram` of the two arrays (Proof/Gram.lean), entry by
  entry: the reference by reading its last stage one operation at a time (Proof/RefGram.lean); the kernel because a
  tile's entry (p, q) at grid point (I, J) is the Gram entry (2048 I + p, 2048 J + q) (Proof/Body.lean for the
  tile, Proof/Norms.lean for the two arrays of squared lengths the region is launched with) and the sixteen tiles
  cover the output (Proof/Tiles.lean). The two sides spell the same sums in the same order with the same three
  literal words, and the matrix product into a zero accumulator is the bare sum of products, so no law of
  arithmetic beyond `0 + s = s` is used and the inputs' finiteness is never opened. The idealized kernel is the
  kernel's own text read over the extended reals (no rewrite was applied), and the three programs' runs terminate
  leaving their arguments as they found them.
-/
import proofs.«174080_j65481071403856_2_alg».proof.Defs
import proofs.«174080_j65481071403856_2_alg».proof.Proof.Gen.Kernel
import proofs.«174080_j65481071403856_2_alg».proof.Proof.Gen.Kernel.Skeleton
import proofs.«174080_j65481071403856_2_alg».proof.Proof.Gen.Kernel.Launch
import proofs.«174080_j65481071403856_2_alg».proof.Proof.Gen.Kernel.Points
import proofs.«174080_j65481071403856_2_alg».proof.Proof.Gen.Kernel.Frame
import proofs.«174080_j65481071403856_2_alg».proof.Proof.Gen.KernelIdeal
import proofs.«174080_j65481071403856_2_alg».proof.Proof.Gen.KernelIdeal.Skeleton
import proofs.«174080_j65481071403856_2_alg».proof.Proof.Gen.KernelIdeal.Launch
import proofs.«174080_j65481071403856_2_alg».proof.Proof.Gen.KernelIdeal.Points
import proofs.«174080_j65481071403856_2_alg».proof.Proof.Gen.KernelIdeal.Frame
import proofs.«174080_j65481071403856_2_alg».proof.Proof.Gen.ReferenceIdeal
import proofs.«174080_j65481071403856_2_alg».proof.Proof.Gen.KernelIdeal.Value
import proofs.«174080_j65481071403856_2_alg».proof.Proof.Gen.ReferenceIdeal.Run
import proofs.«174080_j65481071403856_2_alg».proof.Proof.Gen.ReferenceIdeal.Read
import proofs.«174080_j65481071403856_2_alg».proof.Proof.Gen.Pre_finite_inputs
import proofs.«174080_j65481071403856_2_alg».proof.Proof.Gram
import proofs.«174080_j65481071403856_2_alg».proof.Proof.RefGram
import proofs.«174080_j65481071403856_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs to the end and leaves x and y unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

/-- From memories that agree on x and y both programs end with the Gram matrix of x and y in their result. -/
theorem algebraic : Cert.algebraic_KernelIdeal_ReferenceIdeal := by
  intro m ρ m' ρ' _ hagree
  refine ⟨fun c => Cert.Gram.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefGram.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
